-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 86
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S1x2, .f32⟩
  | .hbm, ⟨85, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x2, .f32⟩
  | .local _ .vmem, ⟨15, _⟩ => ⟨S1x2, .f32⟩
  | .local _ .vmem, ⟨16, _⟩ => ⟨S2000x2, .f32⟩
  | .local _ .vmem, ⟨17, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x2.size a ≤ S50000x2.size a
  hwx2_4 : ∀ i : grid2.Coords, EltTy.bits .f32 = 32 ∨ (Rect.block (s := S50000x2) S2000x2.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S2000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x2, .f32⟩
  | .hbm, ⟨95, _⟩ => ⟨S1x2, .f32⟩
  | .hbm, ⟨96, _⟩ => ⟨S50000x2, .f32⟩
  | .hbm, ⟨97, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Layer.lean ====
/-
  The three dense stages of a two-layer graph convolution with a linear head, as functions of whole arrays on the
  extended reals, index by index over the literal shapes (50000 nodes, 128 features, 2 outputs):

    lin x w        (i, j) = Σ_k x(i,k) · w(k,j)
    midLayer a b w   (i, j) = Σ_k max(a(i,k) + b(0,k), 0) · w(k,j)
    head a b w c   (i, j) = Σ_k max(a(i,k) + b(0,k), 0) · w(k,j) + c(0,j)

  The bias is a one-row matrix, added to every row; the clamp is against the f32 word of +0, kept as that word.
  Both programs compute these three functions, joined by the same sparse aggregation between them; no law of the
  extended reals beyond reading each operation at an index is used, so no finiteness of the inputs is needed.
-/
import Idealize.ShloMosaic.PureOps.Ideal
import Idealize.ShloMosaic.Lib.ValueIdx

noncomputable section

namespace Cert.Gcn

open Idealize.ShloMosaic Idealize.ShloMosaic.ValueIdx

/-- An r×c matrix of extended reals. -/
abbrev Mat (r c : Nat) : Type := (⟨2, ![r, c]⟩ : Shape).Idx → EReal

/-- The value the activation clamps at: what the f32 word of +0 denotes. -/
abbrev zero : EReal := (FloatOps.ofBits (F := Ideal) .f32 0x00000000#32 : Ideal .f32)

/-- Bias, then the rectifier: `max (a + b) 0`. -/
def act (a b : EReal) : EReal := max (a + b) zero

/-- A vector as a one-row matrix: entry (0, k) is the vector's entry k. -/
def row {n : Nat} (v : (⟨1, ![n]⟩ : Shape).Idx → EReal) : Mat 1 n := fun i => v (ix1 (i 1))

/-- One row of an activated matrix against one column of the weights: `Σ_k max(a_k + b_k, 0) · w_k`. -/
def actDot (a b w : Fin 128 → EReal) : EReal := ∑ k : Fin 128, act (a k) (b k) * w k

/-- The first layer's linear map `x · w`. -/
def lin (x : Mat 50000 128) (w : Mat 128 128) : Mat 50000 128 :=
  fun i => ∑ k : Fin 128, x (ix2 (i 0) k) * w (ix2 k (i 1))

/-- The second layer's linear map of the activated first layer: `relu (a + b) · w`. -/
def midLayer (a : Mat 50000 128) (b : Mat 1 128) (w : Mat 128 128) : Mat 50000 128 :=
  fun i => actDot (fun k => a (ix2 (i 0) k)) (fun k => b (ix2 (0 : Fin 1) k)) (fun k => w (ix2 k (i 1)))

/-- The head: `relu (a + b) · w + c`. -/
def head (a : Mat 50000 128) (b : Mat 1 128) (w : Mat 128 2) (c : Mat 1 2) : Mat 50000 2 :=
  fun i => actDot (fun k => a (ix2 (i 0) k)) (fun k => b (ix2 (0 : Fin 1) k)) (fun k => w (ix2 k (i 1)))
    + c (ix2 (0 : Fin 1) (i 1))

end Cert.Gcn

end
-- ==== Proof.RefStages.lean ====
/-
  The reference program as the composition of its dense stages and its sparse aggregation.

  Between two dense stages both programs run the same host operations: gather the rows of the layer's output at the
  edges' sources, scale each by the edge's symmetric normalisation, and add them into the rows at the edges'
  destinations. That aggregation is `aggregate h ei`, a function of the dense output `h` and of the edge list `ei`
  alone; only its being one function of `h` and `ei` on both sides is used. The reference's three `dot_general`s, read at an index as sums over the 128
  contraction positions, are `lin`, `midLayer` and `head` of the specification, so its result is

    head (aggregate (midLayer (aggregate (lin x w1) ei) (row b1) w2) ei) (row b2) wfc (row bfc).
-/
import proofs.«102551_j68427418959951_1_alg».proof.Proof.RefRead
import proofs.«102551_j68427418959951_1_alg».proof.Proof.Layer
import Idealize.ShloMosaic.Lib.ValueIdx

noncomputable section

namespace Cert.ReferenceIdeal.Stages

open Idealize.ShloMosaic Idealize.ShloMosaic.ValueIdx
open Cert.ReferenceIdeal Cert.ReferenceIdeal.Gen Cert.ReferenceIdeal.ReadP Cert.Gcn

/-- The sparse aggregation of a dense layer output `h` over the edge list `ei` (with its self loops): the rows of
    `h` at the sources, each scaled by its edge's normalisation, added into the rows at the destinations. -/
def aggregate (h : (⟨S50000x128, .f32⟩ : BufTy).Contents (Elt Ideal)) (ei : (⟨S2x800000, .i32⟩ : BufTy).Contents (Elt Ideal)) : (⟨S50000x128, .f32⟩ : BufTy).Contents (Elt Ideal) :=
  Host.scatterAdd (F := Ideal) (φ := .f32) scatter_S50000x128_S850000x1_S850000x128_1_0_0_1 (val_main_v41 (F := Ideal)) (val_main_v42 (F := Ideal) ei)
    (mulf (F := Ideal) (φ := .f32) (Host.gather (α := Ideal .f32) gather_S50000x128_S850000x1_S850000x128_1_0_n_n_0_1_1128 h (val_main_v36 (F := Ideal) ei))
      (val_main_v39 (F := Ideal) ei))

/-- The whole network as the reference computes it. -/
def network (x : (⟨S50000x128, .f32⟩ : BufTy).Contents (Elt Ideal)) (ei : (⟨S2x800000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (wfc : (⟨S128x2, .f32⟩ : BufTy).Contents (Elt Ideal)) (bfc : (⟨S2, .f32⟩ : BufTy).Contents (Elt Ideal)) : (⟨S50000x2, .f32⟩ : BufTy).Contents (Elt Ideal) :=
  head (aggregate (midLayer (aggregate (lin x w1) ei) (row b1) w2) ei) (row b2) wfc (row bfc)

/-- The first aggregation in the program is `aggregate` of the first product. -/
theorem v43_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) :
    val_main_v43 (F := Ideal) x0 x1 x2 = aggregate (val_main_v30 (F := Ideal) x0 x2) x1 := rfl

/-- The second aggregation in the program is `aggregate` of the second product. -/
theorem v61_eq (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v61 (F := Ideal) x0 x1 x2 x3 x4 = aggregate (val_main_v48 (F := Ideal) x0 x1 x2 x3 x4) x1 := rfl

/-- The first product is `lin`. -/
theorem v30_eq (x0 : (⟨S50000x128, .f32⟩ : BufTy).Contents (Elt Ideal)) (x2 : (⟨S128x128, .f32⟩ : BufTy).Contents (Elt Ideal)) :
    val_main_v30 (F := Ideal) x0 x2 = lin x0 x2 := by
  funext i
  obtain ⟨r, q, rfl⟩ : ∃ (r : Fin 50000) (q : Fin 128), i = ix2 r q := ⟨i 0, i 1, eq_ix2 i⟩
  rw [val_main_v30_apply]
  show _ = ∑ k : Fin 128, x0 (ix2 r k) * x2 (ix2 k q)
  refine Finset.sum_congr rfl fun k _ => ?_
  have el : lidx_main_v30 (ix2 r q) k = ix2 r k := funext fun a => Fin.ext (by match a with | ⟨0, _⟩ => rfl | ⟨1, _⟩ => rfl)
  have er : ridx_main_v30 (ix2 r q) k = ix2 k q := funext fun a => Fin.ext (by match a with | ⟨0, _⟩ => rfl | ⟨1, _⟩ => rfl)
  exact congrArg₂ (fun a b : EReal => a * b) (congrArg x0 el) (congrArg x2 er)

/-- The second product is `midLayer` of the first aggregation. -/
theorem v48_eq (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v48 (F := Ideal) x0 x1 x2 x3 x4 = midLayer (val_main_v43 (F := Ideal) x0 x1 x2) (row x3) x4 := by
  funext i
  obtain ⟨r, q, rfl⟩ : ∃ (r : Fin 50000) (q : Fin 128), i = ix2 r q := ⟨i 0, i 1, eq_ix2 i⟩
  rw [val_main_v48_apply]
  show _ = ∑ k : Fin 128, act (val_main_v43 (F := Ideal) x0 x1 x2 (ix2 r k)) (x3 (ix1 k)) * x4 (ix2 k q)
  refine Finset.sum_congr rfl fun k _ => ?_
  have el : lidx_main_v48 (ix2 r q) k = ix2 r k := funext fun a => Fin.ext (by match a with | ⟨0, _⟩ => rfl | ⟨1, _⟩ => rfl)
  have er : ridx_main_v48 (ix2 r q) k = ix2 k q := funext fun a => Fin.ext (by match a with | ⟨0, _⟩ => rfl | ⟨1, _⟩ => rfl)
  have eb : idx_main_v44 (idx_main_v45 (ix2 r k)) = ix1 k := funext fun a => Fin.ext (by match a with | ⟨0, _⟩ => rfl)
  refine (congrArg₂ (fun a b : EReal => a * b) (congrArg (val_main_v47 (F := Ideal) x0 x1 x2 x3) el) (congrArg x4 er)).trans ?_
  refine congrArg (fun a : EReal => a * x4 (ix2 k q)) ?_
  rw [val_main_v47_apply, val_main_v46_apply, val_main_v45_apply, val_main_v44_apply, val_main_call1_v0_apply,
    val_main_call1_cst_apply, eb]
  rfl

/-- The program's result is `head` of the second aggregation. -/
theorem v69_eq (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S128x2, .f32⟩ : BufTy).Contents (Elt Ideal)) (x7 : (⟨S2, .f32⟩ : BufTy).Contents (Elt Ideal)) :
    val_main_v69 (F := Ideal) x0 x1 x2 x3 x4 x5 x6 x7 = head (val_main_v61 (F := Ideal) x0 x1 x2 x3 x4) (row x5) x6 (row x7) := by
  funext i
  obtain ⟨r, q, rfl⟩ : ∃ (r : Fin 50000) (q : Fin 2), i = ix2 r q := ⟨i 0, i 1, eq_ix2 i⟩
  rw [val_main_v69_apply, val_main_v66_apply, val_main_v68_apply, val_main_v67_apply]
  have ec : idx_main_v67 (idx_main_v68 (ix2 r q)) = ix1 q := funext fun a => Fin.ext (by match a with | ⟨0, _⟩ => rfl)
  show (_ : EReal) + (_ : EReal)
    = (∑ k : Fin 128, act (val_main_v61 (F := Ideal) x0 x1 x2 x3 x4 (ix2 r k)) (x5 (ix1 k)) * x6 (ix2 k q)) + x7 (ix1 q)
  refine congrArg₂ (fun a b : EReal => a + b) ?_ (congrArg x7 ec)
  refine Finset.sum_congr rfl fun k _ => ?_
  have el : lidx_main_v66 (ix2 r q) k = ix2 r k := funext fun a => Fin.ext (by match a with | ⟨0, _⟩ => rfl | ⟨1, _⟩ => rfl)
  have er : ridx_main_v66 (ix2 r q) k = ix2 k q := funext fun a => Fin.ext (by match a with | ⟨0, _⟩ => rfl | ⟨1, _⟩ => rfl)
  have eb : idx_main_v62 (idx_main_v63 (ix2 r k)) = ix1 k := funext fun a => Fin.ext (by match a with | ⟨0, _⟩ => rfl)
  refine (congrArg₂ (fun a b : EReal => a * b) (congrArg (val_main_v65 (F := Ideal) x0 x1 x2 x3 x4 x5) el) (congrArg x6 er)).trans ?_
  refine congrArg (fun a : EReal => a * x6 (ix2 k q)) ?_
  rw [val_main_v65_apply, val_main_v64_apply, val_main_v63_apply, val_main_v62_apply, val_main_call2_v0_apply,
    val_main_call2_cst_apply, eb]
  rfl

/-- The reference's result is the network of its arguments. -/
theorem result_eq (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S128x2, .f32⟩ : BufTy).Contents (Elt Ideal)) (x7 : (⟨S2, .f32⟩ : BufTy).Contents (Elt Ideal)) :
    val_main_v69 (F := Ideal) x0 x1 x2 x3 x4 x5 x6 x7 = network x0 x1 x2 x3 x4 x5 x6 x7 := by
  unfold network
  rw [v69_eq, v61_eq, v48_eq, v43_eq, v30_eq]

end Cert.ReferenceIdeal.Stages

end
-- ==== Proof.KernelRun.lean ====
/-
  The idealized kernel's run with its result named.

  The program is three pipelined regions among stretches of host operations. Its buffer contents at each boundary
  are a fold from the launch memory: a host stretch applies its operations' functions, a region replaces its
  arrays by what its write-backs leave and keeps every other buffer. Every weakly fair execution ends with each
  unscoped buffer at the last boundary's contents; read at the result buffer that is the third region's output
  array after its last grid point, and read at an argument it is the launch contents.
-/
import proofs.«102551_j68427418959951_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the arguments as launched: the launch over the program's segments, the last thread state read
    against the final state at the result buffer and at each argument. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KernelBody.lean ====
/-
  What each of the three kernel bodies stores, read at one entry (p, q) of its output block, on the extended reals.

  A change of float format is the identity and the matrix unit accumulates into the zero splat, so the stored entry
  is the plain sum over the 128 contraction positions of (left row p at k) · (right column q at k). In the second
  and third bodies the left operand is first shifted by the one-row bias (broadcast over the 2000 rows of the block)
  and clamped below at zero, entry by entry; the third body adds the output bias row after the product.
-/
import proofs.«102551_j68427418959951_1_alg».proof.Proof.Gen.KernelIdeal.Skeleton
import proofs.«102551_j68427418959951_1_alg».proof.Proof.LibPlainDot
import proofs.«102551_j68427418959951_1_alg».proof.Proof.Layer
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.Gcn

/-- The first body stores row p of its block of x against column q of the weights. -/
theorem body0_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  exact Cert.LibPlainDot.matmul_zero_apply 2000 128 128 none _ _ (ix2 p q)

/-- The biased, clamped block read at (p, k): the bias row does not depend on p. -/
theorem activated_apply (x : Vec Ideal S2000x128 .f32) (b : Vec Ideal S1x128 .f32) (p : Fin 2000) (k : Fin 128) :
    maximumf (addf (shapeCast S2000x128 x Facts₀.shapeCasts_S2000x128_S2000x128)
        (broadcastTo S2000x128 (shapeCast S1x128 b Facts₀.shapeCasts_S1x128_S1x128) Facts₀.broadcasts_S1x128_S2000x128))
      (broadcast S2000x128 (Scalar.ofBits (F := Ideal) .f32 0x00000000#32)) (ix2 p k)
    = act (x (ix2 p k)) (b (ix2 (0 : Fin 1) k)) := by
  show max (shapeCast S2000x128 x _ (ix2 p k) + broadcastTo S2000x128 (shapeCast S1x128 b _) _ (ix2 p k)) _ = _
  rw [shapeCast_self, shapeCast_self, broadcastTo_1b_ab_apply]
  rfl

/-- The second body stores the activated row p against column q of the weights. -/
theorem body1_apply (x : Vec Ideal S2000x128 .f32) (b : Vec Ideal S1x128 .f32) (w : Vec Ideal S128x128 .f32)
    (p : Fin 2000) (q : Fin 128) :
    k1_pay1 (F := Ideal) x b w (ix2 p q)
      = actDot (fun k => x (ix2 p k)) (fun k => b (ix2 (0 : Fin 1) k)) (fun k => w (ix2 k q)) := by
  unfold k1_pay1
  refine (Cert.LibPlainDot.matmul_zero_apply 2000 128 128 none _ _ (ix2 p q)).trans ?_
  unfold actDot
  refine Finset.sum_congr rfl fun k _ => ?_
  exact congrArg (· * w (ix2 k q)) (activated_apply x b p k)

/-- The third body stores the activated row p against column q of the head's weights, plus the output bias at q. -/
theorem body2_apply (x : Vec Ideal S2000x128 .f32) (b : Vec Ideal S1x128 .f32) (w : Vec Ideal S128x2 .f32)
    (c : Vec Ideal S1x2 .f32) (p : Fin 2000) (q : Fin 2) :
    k2_pay1 (F := Ideal) x b w c (ix2 p q)
      = actDot (fun k => x (ix2 p k)) (fun k => b (ix2 (0 : Fin 1) k)) (fun k => w (ix2 k q)) + c (ix2 (0 : Fin 1) q) := by
  unfold k2_pay1
  show (_ : EReal) + (_ : EReal) = _ + _
  refine congrArg₂ (· + ·) ?_ ?_
  · refine (Cert.LibPlainDot.matmul_zero_apply 2000 128 2 none _ _ (ix2 p q)).trans ?_
    unfold actDot
    refine Finset.sum_congr rfl fun k _ => ?_
    exact congrArg (· * w (ix2 k q)) (activated_apply x b p k)
  · show broadcastTo S2000x2 (shapeCast S1x2 c _) _ (ix2 p q) = _
    rw [shapeCast_self, broadcastTo_1b_ab_apply]

end Cert.KernelIdeal.Body

end
-- ==== Proof.KernelArrays.lean ====
/-
  Each region's output array after its last grid point, as one function of the arrays the region finds, on the
  extended reals.

  The 25 grid points cut the 50000 rows into blocks of 2000: block t of the first operand and of the output is rows
  2000·t … 2000·t + 1999, all columns; the weights and the bias rows are one block, the same at every point. So
  what point t writes back is block t of the layer's whole-array function (row 2000·t + p of the product only reads
  row 2000·t + p of the left operand), and since row r lies in block r / 2000 the blocks cover the array.
-/
import proofs.«102551_j68427418959951_1_alg».proof.Proof.Gen.KernelIdeal.Frame
import proofs.«102551_j68427418959951_1_alg».proof.Proof.KernelBody
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body Cert.Gcn

variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-! ## Region 0: x · W1 -/

/-- The printed index maps over the grid: the row blocks move with the point, the weights stay. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `lin` of the two arrays. -/
theorem flushed0 (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := index0 t
  funext j
  obtain ⟨p, q, rfl⟩ : ∃ (p : Fin 2000) (q : Fin 128), j = ix2 p q := ⟨j 0, j 1, eq_ix2 j⟩
  refine (body0_apply (iblk0 V c 0 t) (iblk0 V c 1 t) p q).trans ?_
  show _ = lin (V c main_arg0) (V c main_arg2) (((cfg0.win 2).blk t).view.emb (ix2 p q))
  unfold lin
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_arg0) h0) (congrArg (V c main_arg2) h1)

/-- An index is in point t's output block iff its row is among the block's 2000 and its column among the 128. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row r is in block r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 2000, by show (i 0).val / 2000 < 25; omega⟩, flush0_2 _, ?_⟩
  rw [mem_block0]
  obtain ⟨e0, e1, e2, e3, e4, e5⟩ := index0 ⟨(i 0).val / 2000, by show (i 0).val / 2000 < 25; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- The first region's output array after the run is `x · W1` of the arrays it found. -/
theorem array0 (c : Dev nD) : (dat0 V c).arrAt 2 cfg0.N = lin (V c main_arg0) (V c main_arg2) :=
  (dat0 V c).arrAt_eq_of_cover 2 (lin (V c main_arg0) (V c main_arg2)) (fun t _ => flushed0 V c t) cover0

/-! ## Region 1: relu (agg1 + b1) · W2 -/

/-- The printed index maps over the grid: the row blocks move with the point; the bias row and the weights stay. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `midLayer` of the three arrays. -/
theorem flushed1 (c : Dev nD) (t : Fin cfg1.N) :
    (dat1 V c).flushed 3 t
      = ((cfg1.win 3).blk t).view.read (Elt Ideal) (midLayer (V c main_v43) (V c main_v44) (V c main_arg4)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S1x128) zero_offsets,
    View.ld_unit_zero (S := S128x128) zero_offsets]
  obtain ⟨e0, e1, e2, e3, e4, e5, e6, e7⟩ := index1 t
  funext j
  obtain ⟨p, q, rfl⟩ : ∃ (p : Fin 2000) (q : Fin 128), j = ix2 p q := ⟨j 0, j 1, eq_ix2 j⟩
  refine (body1_apply (iblk1 V c 0 t) (iblk1 V c 1 t) (iblk1 V c 2 t) p q).trans ?_
  show _ = midLayer (V c main_v43) (V c main_v44) (V c main_arg4) (((cfg1.win 3).blk t).view.emb (ix2 p q))
  unfold midLayer actDot
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega
  exact congrArg₂ (fun a b : EReal => a * b)
    (congrArg₂ act (congrArg (V c main_v43) h0) (congrArg (V c main_v44) h1)) (congrArg (V c main_arg4) h2)

/-- An index is in point t's output block iff its row is among the block's 2000 and its column among the 128. -/
theorem mem_block1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v45).slice (win1_3.rect t)).set ↔ _
  rw [View.set_slice_whole, Rect.mem_set_unit]
  exact Iff.rfl

/-- Row r is in block r / 2000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 2000, by show (i 0).val / 2000 < 25; omega⟩, flush1_3 _, ?_⟩
  rw [mem_block1]
  obtain ⟨e0, e1, e2, e3, e4, e5, e6, e7⟩ := index1 ⟨(i 0).val / 2000, by show (i 0).val / 2000 < 25; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 128 ≤ (i 1).val ∧ (i 1).val < win1_3.index _ (1 : Fin 2) * 128 + 128; rw [e7]; omega

/-- The second region's output array after the run is `midLayer` of the arrays it found. -/
theorem array1 (c : Dev nD) : (dat1 V c).arrAt 3 cfg1.N = midLayer (V c main_v43) (V c main_v44) (V c main_arg4) :=
  (dat1 V c).arrAt_eq_of_cover 3 (midLayer (V c main_v43) (V c main_v44) (V c main_arg4)) (fun t _ => flushed1 V c t) cover1

/-! ## Region 2: relu (agg2 + b2) · Wfc + bfc -/

/-- The printed index maps over the grid: the row blocks move with the point; the bias rows and the weights stay. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of `head` of the four arrays. -/
theorem flushed2 (c : Dev nD) (t : Fin cfg2.N) :
    (dat2 V c).flushed 4 t
      = ((cfg2.win 4).blk t).view.read (Elt Ideal) (head (V c main_v58) (V c main_v59) (V c main_arg6) (V c main_v60)) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S1x128) zero_offsets,
    View.ld_unit_zero (S := S128x2) zero_offsets, View.ld_unit_zero (S := S1x2) zero_offsets]
  obtain ⟨e0, e1, e2, e3, e4, e5, e6, e7, e8, e9⟩ := index2 t
  funext j
  obtain ⟨p, q, rfl⟩ : ∃ (p : Fin 2000) (q : Fin 2), j = ix2 p q := ⟨j 0, j 1, eq_ix2 j⟩
  refine (body2_apply (iblk2 V c 0 t) (iblk2 V c 1 t) (iblk2 V c 2 t) (iblk2 V c 3 t) p q).trans ?_
  show _ = head (V c main_v58) (V c main_v59) (V c main_arg6) (V c main_v60) (((cfg2.win 4).blk t).view.emb (ix2 p q))
  unfold head actDot
  have h3 : ((cfg2.win 3).blk t).view.emb (ix2 (0 : Fin 1) q) = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 2 + 1 * q.val = win2_4.index t (1 : Fin 2) * 2 + 1 * q.val; omega
  refine congrArg₂ (fun a b : EReal => a + b) ?_ (congrArg (V c main_v60) h3)
  refine Finset.sum_congr rfl fun k _ => ?_
  have h0 : ((cfg2.win 0).blk t).view.emb (ix2 p k) = ix2 ((((cfg2.win 4).blk t).view.emb (ix2 p q)) 0) k := by
    funext a; apply Fin.ext
    match a with
    | ⟨0, _⟩ => show win2_0.index t (0 : Fin 2) * 2000 + 1 * p.val = win2_4.index t (0 : Fin 2) * 2000 + 1 * p.val; omega
    | ⟨1, _⟩ => show win2_0.index t (1 : Fin 2) * 128 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (ix2 k q) = ix2 k ((((cfg2.win 4).blk t).view.emb (ix2 p q)) 1) := by
    funext a; apply Fin.ext
    match a with
    | ⟨0, _⟩ => show win2_2.index t (0 : Fin 2) * 128 + 1 * k.val = k.val; omega
    | ⟨1, _⟩ => show win2_2.index t (1 : Fin 2) * 2 + 1 * q.val = win2_4.index t (1 : Fin 2) * 2 + 1 * q.val; omega
  exact congrArg₂ (fun a b : EReal => a * b)
    (congrArg₂ act (congrArg (V c main_v58) h0) (congrArg (V c main_v59) h1)) (congrArg (V c main_arg6) h2)

/-- An index is in point t's output block iff its row is among the block's 2000 and its column among the 2. -/
theorem mem_block2 (t : Fin cfg2.N) (i : S50000x2.Idx) :
    i ∈ ((cfg2.win 4).blk t).view.set ↔ ∀ a : Fin 2, win2_4.index t a * S2000x2.size a ≤ (i a).val ∧ (i a).val < win2_4.index t a * S2000x2.size a + S2000x2.size a := by
  show i ∈ ((View.whole main_v61).slice (win2_4.rect t)).set ↔ _
  rw [View.set_slice_whole, Rect.mem_set_unit]
  exact Iff.rfl

/-- Row r is in block r / 2000. -/
theorem cover2 (i : S50000x2.Idx) : ∃ t : Fin cfg2.N, (cfg2.win 4).flush t = true ∧ i ∈ ((cfg2.win 4).blk t).view.set := by
  have hi0 : (i 0).val < 50000 := (i 0).isLt
  have hi1 : (i 1).val < 2 := (i 1).isLt
  refine ⟨⟨(i 0).val / 2000, by show (i 0).val / 2000 < 25; omega⟩, flush2_4 _, ?_⟩
  rw [mem_block2]
  obtain ⟨e0, e1, e2, e3, e4, e5, e6, e7, e8, e9⟩ := index2 ⟨(i 0).val / 2000, by show (i 0).val / 2000 < 25; omega⟩
  intro a
  match a with
  | ⟨0, _⟩ => show win2_4.index _ (0 : Fin 2) * 2000 ≤ (i 0).val ∧ (i 0).val < win2_4.index _ (0 : Fin 2) * 2000 + 2000; rw [e8]; show (i 0).val / 2000 * 2000 ≤ (i 0).val ∧ (i 0).val < (i 0).val / 2000 * 2000 + 2000; omega
  | ⟨1, _⟩ => show win2_4.index _ (1 : Fin 2) * 2 ≤ (i 1).val ∧ (i 1).val < win2_4.index _ (1 : Fin 2) * 2 + 2; rw [e9]; omega

/-- The third region's output array after the run is `head` of the arrays it found. -/
theorem array2 (c : Dev nD) :
    (dat2 V c).arrAt 4 cfg2.N = head (V c main_v58) (V c main_v59) (V c main_arg6) (V c main_v60) :=
  (dat2 V c).arrAt_eq_of_cover 4 (head (V c main_v58) (V c main_v59) (V c main_arg6) (V c main_v60)) (fun t _ => flushed2 V c t) cover2

end Cert.KernelIdeal.Arrays

end
-- ==== Proof.Bridge.lean ====
/-
  The idealized kernel's result buffer holds the network of the arguments.

  The buffer contents at each boundary of the program are followed from the launch memory to the return:
    * before the first region the host operations leave the edge list's sources, destinations and normalisations
      (functions of the edge list alone), and no argument is written;
    * the first region leaves `lin x w1` in its output array and every other buffer as it was;
    * the host operations after it aggregate that array over the edges and lay the first bias out as a row;
    * the second region leaves `midLayer` of the aggregation, the bias row and w2; the next stretch aggregates again
      and lays out the two remaining biases; the third region leaves `head`.
  A host stretch is read at a buffer by rewriting each operation's result to its function of its operands; a buffer
  a stretch does not write, or that is not one of a region's arrays, keeps its contents. The aggregation on the
  kernel's side is the reference's, operation for operation, so the two terms are one (`rfl`).
-/
import proofs.«102551_j68427418959951_1_alg».proof.Proof.KernelArrays
import proofs.«102551_j68427418959951_1_alg».proof.Proof.RefStages
import Idealize.ShloMosaic.Lib.StableHlo.Run
import Idealize.ShloMosaic.Lib.ValueLayout

set_option maxRecDepth 16384

noncomputable section

namespace Cert.Bridge

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Arrays Cert.Gcn
open Cert.ReferenceIdeal.Stages (aggregate network)
open Cert.ReferenceIdeal.ReadP (val_main_v5 val_main_v6 val_main_v12 val_main_v13 val_main_cst_2 val_main_v14 val_main_v29)

variable (m : (ℓ : Loc nD τ sig) → Buf (Elt Ideal) ℓ) (ρ : Dev nD → PrngReg) (c : Dev nD)

/-- The arguments as launched. -/
abbrev a0 : Buf (Elt Ideal) ((c : Thread nD τ).loc main_arg0) := m ((c : Thread nD τ).loc main_arg0)
abbrev a1 : Buf (Elt Ideal) ((c : Thread nD τ).loc main_arg1) := m ((c : Thread nD τ).loc main_arg1)
abbrev a2 : Buf (Elt Ideal) ((c : Thread nD τ).loc main_arg2) := m ((c : Thread nD τ).loc main_arg2)
abbrev a3 : Buf (Elt Ideal) ((c : Thread nD τ).loc main_arg3) := m ((c : Thread nD τ).loc main_arg3)
abbrev a4 : Buf (Elt Ideal) ((c : Thread nD τ).loc main_arg4) := m ((c : Thread nD τ).loc main_arg4)
abbrev a5 : Buf (Elt Ideal) ((c : Thread nD τ).loc main_arg5) := m ((c : Thread nD τ).loc main_arg5)
abbrev a6 : Buf (Elt Ideal) ((c : Thread nD τ).loc main_arg6) := m ((c : Thread nD τ).loc main_arg6)
abbrev a7 : Buf (Elt Ideal) ((c : Thread nD τ).loc main_arg7) := m ((c : Thread nD τ).loc main_arg7)

/-- Reads a stretch of host operations at one buffer: each operation's result at its own buffer is its function of
    its operands' contents, and at any other buffer what was there. -/
macro "host_read" : tactic => `(tactic|
  (simp only [W1, W2, W3, W5, W7, hostOps0, hostOps0_1, hostOps0_2, hostOps1, hostOps2]
   after_results_simp))

/-! ## Before the first region -/

theorem W3_arg0 : W3 m ρ c (Proc.devRef .tc main_arg0) = a0 m c := by host_read <;> rfl
theorem W3_arg2 : W3 m ρ c (Proc.devRef .tc main_arg2) = a2 m c := by host_read <;> rfl
theorem W3_arg3 : W3 m ρ c (Proc.devRef .tc main_arg3) = a3 m c := by host_read <;> rfl
theorem W3_arg4 : W3 m ρ c (Proc.devRef .tc main_arg4) = a4 m c := by host_read <;> rfl
theorem W3_arg5 : W3 m ρ c (Proc.devRef .tc main_arg5) = a5 m c := by host_read <;> rfl
theorem W3_arg6 : W3 m ρ c (Proc.devRef .tc main_arg6) = a6 m c := by host_read <;> rfl
theorem W3_arg7 : W3 m ρ c (Proc.devRef .tc main_arg7) = a7 m c := by host_read <;> rfl

/-- The sources of the edges with their self loops, -/
theorem W3_v5 : W3 m ρ c (Proc.devRef .tc main_v5) = val_main_v5 (F := Ideal) (a1 m c) := by host_read <;> rfl
/-- their destinations, -/
theorem W3_v6 : W3 m ρ c (Proc.devRef .tc main_v6) = val_main_v6 (F := Ideal) (a1 m c) := by host_read <;> rfl
/-- After the second stretch: the sources, the destinations, and each node's inverse square-root degree (zero where
    the degree is zero). -/
theorem W2_v5 : W2 m ρ c (Proc.devRef .tc main_v5) = val_main_v5 (F := Ideal) (a1 m c) := by host_read <;> rfl
theorem W2_v6 : W2 m ρ c (Proc.devRef .tc main_v6) = val_main_v6 (F := Ideal) (a1 m c) := by host_read <;> rfl
/-- After the first stretch: which nodes have a positive degree, the degrees' inverse square roots, and the zero
    the others get. -/
theorem W1_v12 : W1 m ρ c (Proc.devRef .tc main_v12) = val_main_v12 (F := Ideal) (a1 m c) := by host_read <;> rfl
theorem W1_v13 : W1 m ρ c (Proc.devRef .tc main_v13) = val_main_v13 (F := Ideal) (a1 m c) := by host_read <;> rfl
theorem W1_cst_2 : W1 m ρ c (Proc.devRef .tc main_cst_2) = val_main_cst_2 (F := Ideal) := by host_read <;> rfl
theorem W2_v14 : W2 m ρ c (Proc.devRef .tc main_v14) = val_main_v14 (F := Ideal) (a1 m c) := by
  have e12 := W1_v12 m ρ c
  have e13 := W1_v13 m ρ c
  have ec := W1_cst_2 m ρ c
  show StableHlo.after hostOps0_1 (W1 m ρ c) (Proc.devRef .tc main_v14) = _
  generalize W1 m ρ c = U at e12 e13 ec ⊢
  simp only [hostOps0_1]
  after_results_simp
  rw [e12, e13, ec]
  -- the outlined call moves each value between its own type and its buffer's type, which are one type: each
  -- transport is the identity
  have t14 : ∀ X, (TRef.of (T := ⟨S50000, .f32⟩) main_v14).toBuf (Val := Elt Ideal) X = X := fun X => cast_eq _ X
  have o12 : ∀ X, (TRef.of (T := ⟨S50000, .i1⟩) main_v12).ofBuf (Val := Elt Ideal) X = X := fun X => cast_eq _ X
  have o13 : ∀ X, (TRef.of (T := ⟨S50000, .f32⟩) main_v13).ofBuf (Val := Elt Ideal) X = X := fun X => cast_eq _ X
  have oc1 : ∀ X, (TRef.of (T := ⟨S50000, .f32⟩) main_call0_v1).ofBuf (Val := Elt Ideal) X = X := fun X => cast_eq _ X
  have tc1 : ∀ X, (TRef.of (T := ⟨S50000, .f32⟩) main_call0_v1).toBuf (Val := Elt Ideal) X = X := fun X => cast_eq _ X
  have oc0 : ∀ X, (TRef.of (T := ⟨S_, .f32⟩) main_call0_v0).ofBuf (Val := Elt Ideal) X = X := fun X => cast_eq _ X
  have tc0 : ∀ X, (TRef.of (T := ⟨S_, .f32⟩) main_call0_v0).toBuf (Val := Elt Ideal) X = X := fun X => cast_eq _ X
  have ocs : ∀ X, (TRef.of (T := ⟨S_, .f32⟩) main_cst_2).ofBuf (Val := Elt Ideal) X = X := fun X => cast_eq _ X
  rw [t14, o12, o13, oc1, tc1, oc0, tc0, ocs]
  rfl
/-- The edges' normalisations are the third stretch's operations of those three: functions of the edge list alone. -/
theorem W3_v29 : W3 m ρ c (Proc.devRef .tc main_v29) = val_main_v29 (F := Ideal) (a1 m c) := by
  have e5 := W2_v5 m ρ c
  have e6 := W2_v6 m ρ c
  have e14 := W2_v14 m ρ c
  show StableHlo.after hostOps0_2 (W2 m ρ c) (Proc.devRef .tc main_v29) = _
  generalize W2 m ρ c = U at e5 e6 e14 ⊢
  simp only [hostOps0_2]
  after_results_simp
  rw [e5, e6, e14]
  rfl

/-! ## The first region and the stretch after it -/

theorem W4_v30 : W4 m ρ c (Proc.devRef .tc main_v30) = lin (a0 m c) (a2 m c) :=
  (W4_arr m ρ c 2).trans ((array0 (V3 m ρ) c).trans (by
    rw [show V3 m ρ c main_arg0 = a0 m c from W3_arg0 m ρ c, show V3 m ρ c main_arg2 = a2 m c from W3_arg2 m ρ c]))

theorem W5_v43 : W5 m ρ c (Proc.devRef .tc main_v43) = aggregate (lin (a0 m c) (a2 m c)) (a1 m c) := by
  host_read
  rw [W4_v30 m ρ c, W4_of_ne m ρ c main_v5 (by decide), W4_of_ne m ρ c main_v6 (by decide), W4_of_ne m ρ c main_v29 (by decide),
    W3_v5 m ρ c, W3_v6 m ρ c, W3_v29 m ρ c]
  rfl

/-- A vector reshaped to one row is `row` of it. -/
theorem shapeCast_row {n : Nat} (v : (⟨1, ![n]⟩ : Shape).Idx → EReal) (h : (⟨1, ![n]⟩ : Shape).ShapeCasts ⟨2, ![1, n]⟩) :
    shapeCast ⟨2, ![1, n]⟩ v h = row v := by
  funext i
  obtain ⟨u, k, rfl⟩ : ∃ (u : Fin 1) (k : Fin n), i = ix2 u k := ⟨i 0, i 1, eq_ix2 i⟩
  exact shapeCast_a_1a_apply v h u k

theorem W5_v44 : W5 m ρ c (Proc.devRef .tc main_v44) = row (a3 m c) := by
  host_read
  rw [W4_of_ne m ρ c main_arg3 (by decide), W3_arg3 m ρ c]
  exact shapeCast_row _ _

theorem W5_arg4 : W5 m ρ c (Proc.devRef .tc main_arg4) = a4 m c := by
  host_read
  rw [W4_of_ne m ρ c main_arg4 (by decide), W3_arg4 m ρ c]

/-! ## The second region and the stretch after it -/

theorem W6_v45 : W6 m ρ c (Proc.devRef .tc main_v45) = midLayer (aggregate (lin (a0 m c) (a2 m c)) (a1 m c)) (row (a3 m c)) (a4 m c) :=
  (W6_arr m ρ c 3).trans ((array1 (V5 m ρ) c).trans (by
    rw [show V5 m ρ c main_v43 = _ from W5_v43 m ρ c, show V5 m ρ c main_v44 = _ from W5_v44 m ρ c,
      show V5 m ρ c main_arg4 = _ from W5_arg4 m ρ c]))

theorem W6_v5 : W6 m ρ c (Proc.devRef .tc main_v5) = val_main_v5 (F := Ideal) (a1 m c) := by
  rw [W6_of_ne m ρ c main_v5 (by decide)]
  host_read
  rw [W4_of_ne m ρ c main_v5 (by decide), W3_v5 m ρ c]
theorem W6_v6 : W6 m ρ c (Proc.devRef .tc main_v6) = val_main_v6 (F := Ideal) (a1 m c) := by
  rw [W6_of_ne m ρ c main_v6 (by decide)]
  host_read
  rw [W4_of_ne m ρ c main_v6 (by decide), W3_v6 m ρ c]
theorem W6_v29 : W6 m ρ c (Proc.devRef .tc main_v29) = val_main_v29 (F := Ideal) (a1 m c) := by
  rw [W6_of_ne m ρ c main_v29 (by decide)]
  host_read
  rw [W4_of_ne m ρ c main_v29 (by decide), W3_v29 m ρ c]
theorem W6_arg5 : W6 m ρ c (Proc.devRef .tc main_arg5) = a5 m c := by
  rw [W6_of_ne m ρ c main_arg5 (by decide)]
  host_read
  rw [W4_of_ne m ρ c main_arg5 (by decide), W3_arg5 m ρ c]
theorem W6_arg6 : W6 m ρ c (Proc.devRef .tc main_arg6) = a6 m c := by
  rw [W6_of_ne m ρ c main_arg6 (by decide)]
  host_read
  rw [W4_of_ne m ρ c main_arg6 (by decide), W3_arg6 m ρ c]
theorem W6_arg7 : W6 m ρ c (Proc.devRef .tc main_arg7) = a7 m c := by
  rw [W6_of_ne m ρ c main_arg7 (by decide)]
  host_read
  rw [W4_of_ne m ρ c main_arg7 (by decide), W3_arg7 m ρ c]

theorem W7_v58 : W7 m ρ c (Proc.devRef .tc main_v58)
    = aggregate (midLayer (aggregate (lin (a0 m c) (a2 m c)) (a1 m c)) (row (a3 m c)) (a4 m c)) (a1 m c) := by
  host_read
  rw [W6_v45 m ρ c, W6_v5 m ρ c, W6_v6 m ρ c, W6_v29 m ρ c]
  rfl

theorem W7_v59 : W7 m ρ c (Proc.devRef .tc main_v59) = row (a5 m c) := by
  host_read
  rw [W6_arg5 m ρ c]
  exact shapeCast_row _ _

theorem W7_v60 : W7 m ρ c (Proc.devRef .tc main_v60) = row (a7 m c) := by
  host_read
  rw [W6_arg7 m ρ c]
  exact shapeCast_row _ _

theorem W7_arg6 : W7 m ρ c (Proc.devRef .tc main_arg6) = a6 m c := by
  host_read
  rw [W6_arg6 m ρ c]

/-! ## The third region -/

/-- The result buffer at the return holds the network of the arguments as launched. -/
theorem result : W8 m ρ c (Proc.devRef .tc main_v61)
    = network (a0 m c) (a1 m c) (a2 m c) (a3 m c) (a4 m c) (a5 m c) (a6 m c) (a7 m c) :=
  (W8_arr m ρ c 4).trans ((array2 (V7 m ρ) c).trans (by
    rw [show V7 m ρ c main_v58 = _ from W7_v58 m ρ c, show V7 m ρ c main_v59 = _ from W7_v59 m ρ c,
      show V7 m ρ c main_arg6 = _ from W7_arg6 m ρ c, show V7 m ρ c main_v60 = _ from W7_v60 m ρ c]
    rfl))

end Cert.Bridge

end
-- ==== Proof.lean ====
/-
  A two-layer graph convolution with a linear head over 50000 nodes, 128 features and 800000 edges (plus one self
  loop per node), against its plain reference, on the extended reals.

  Both programs compute, with `A` the sparse aggregation over the normalised edges,

      out = relu (A (relu (A (x · W1) + b1) · W2) + b2) · Wfc + bfc .

  The kernel runs each dense stage as a pipelined region over 25 row blocks of 2000 (the matrix unit accumulating
  into zero, float formats changed on the way in), with the bias and the rectifier of a layer moved into the next
  stage's body; the reference runs three whole `dot_general`s. The aggregation between the stages is the same host
  operations in both programs. At the exact instance a change of format is the identity and both products are the
  sum over the 128 contraction positions, so every stage is one function of whole arrays on the two sides
  (`Cert.Gcn.lin`, `midLayer`, `head`), and the results agree entry by entry. No entry's value is moved across a
  sum or cancelled, so the finiteness of the inputs is not used.

  The idealization rewrote no operation (`preserves` is `True`). The three frames are the programs' runs with the
  results forgotten.
-/
import proofs.«102551_j68427418959951_1_alg».proof.Defs
import proofs.«102551_j68427418959951_1_alg».proof.Proof.Gen.Kernel
import proofs.«102551_j68427418959951_1_alg».proof.Proof.Gen.Kernel.Skeleton
import proofs.«102551_j68427418959951_1_alg».proof.Proof.Gen.Kernel.Launch
import proofs.«102551_j68427418959951_1_alg».proof.Proof.Gen.Kernel.Points
import proofs.«102551_j68427418959951_1_alg».proof.Proof.Gen.Kernel.Frame
import proofs.«102551_j68427418959951_1_alg».proof.Proof.Gen.KernelIdeal
import proofs.«102551_j68427418959951_1_alg».proof.Proof.Gen.KernelIdeal.Skeleton
import proofs.«102551_j68427418959951_1_alg».proof.Proof.Gen.KernelIdeal.Launch
import proofs.«102551_j68427418959951_1_alg».proof.Proof.Gen.KernelIdeal.Points
import proofs.«102551_j68427418959951_1_alg».proof.Proof.Gen.KernelIdeal.Frame
import proofs.«102551_j68427418959951_1_alg».proof.Proof.Gen.ReferenceIdeal
import proofs.«102551_j68427418959951_1_alg».proof.Proof.Gen.Pre_finite_inputs
import proofs.«102551_j68427418959951_1_alg».proof.Proof.RefRun
import proofs.«102551_j68427418959951_1_alg».proof.Proof.RefRead
import proofs.«102551_j68427418959951_1_alg».proof.Proof.RefStages
import proofs.«102551_j68427418959951_1_alg».proof.Proof.KernelRun
import proofs.«102551_j68427418959951_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten by the idealization. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.ReferenceIdeal.Stages.network (Cert.Bridge.a0 m c) (Cert.Bridge.a1 m c) (Cert.Bridge.a2 m c)
      (Cert.Bridge.a3 m c) (Cert.Bridge.a4 m c) (Cert.Bridge.a5 m c) (Cert.Bridge.a6 m c) (Cert.Bridge.a7 m c), ?_, ?_⟩
  · exact (θ_run Cert.KernelIdeal.defs _ _).mono (fun r h c => ⟨(h c).1.trans (Cert.Bridge.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨g0, g1, g2, g3, g4, g5, g6, g7⟩ := hagree c
    rw [Cert.ReferenceIdeal.ReadP.val_main_v69_eq, Cert.ReferenceIdeal.Stages.result_eq, g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
